-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S4000x128 : Shape := ⟨2, ![4000, 128]⟩

abbrev nBuf : Space → Nat
  | .hbm => 29
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .bf16⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .bf16⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S1x128, .f32⟩
  | .hbm, ⟨28, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .i1⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One message-passing layer, as a function of whole arrays, index by index, on the extended reals.

  With `f` the node features [100000, 128], `h` the aggregated neighbour features of the same shape,
  `w1`, `w2` two [128, 128] weight matrices and `b1`, `b2` two bias rows [1, 128], the entry at row `p`,
  column `q` is

      leaky ( (Σ_k (f p k + h p k) · w1 k q + b1 q) + (Σ_k (f p k · h p k) · w2 k q + b2 q) )

  where `leaky x` is `x` when `x ≥ 0` and `c · x` otherwise, `c` the binary32 value nearest to 0.01.
  Both programs of this certificate compute exactly this function; no algebraic law beyond reading
  each operation at an index is needed to see it, so no finiteness of the inputs is used.
-/
import Idealize.ShloMosaic.PureOps.Ideal
import Idealize.ShloMosaic.PureOps.Ideal.Laws
import Idealize.ShloMosaic.Lib.ValueIdx

noncomputable section

namespace Cert.GnnSpec

open Idealize.ShloMosaic Idealize.ShloMosaic.ValueIdx

/-- The shapes of the node arrays, of a weight matrix and of a bias row. -/
abbrev SN : Shape := ⟨2, ![100000, 128]⟩
abbrev SW : Shape := ⟨2, ![128, 128]⟩
abbrev SB : Shape := ⟨2, ![1, 128]⟩

/-- The pre-activation at column `q` from one row `f` of the features and the matching row `h` of the
    aggregated neighbours: the sum-branch through `w1` plus the product-branch through `w2`, each with its bias. -/
def pre (f h : Fin 128 → EReal) (w1 : SW.Idx → EReal) (b1 : EReal) (w2 : SW.Idx → EReal) (b2 : EReal) (q : Fin 128) : EReal :=
  ((∑ k : Fin 128, (f k + h k) * w1 (ix2 k q)) + b1) + ((∑ k : Fin 128, (f k * h k) * w2 (ix2 k q)) + b2)

/-- The leaky rectifier with slope the binary32 nearest to 0.01, spelt with the comparison and the selection
    both programs apply. -/
def leaky (x : EReal) : EReal :=
  Scalar.select (FloatOps.cmpf (F := Ideal) (φ := .f32) .oge x (FloatOps.ofBits (F := Ideal) .f32 0x00000000#32)) x
    ((FloatOps.ofBits (F := Ideal) .f32 0x3C23D70A#32 : EReal) * x)

/-- The layer's entry at row `p`, column `q`. -/
def layerAt (f h : SN.Idx → EReal) (w1 : SW.Idx → EReal) (b1 : SB.Idx → EReal) (w2 : SW.Idx → EReal) (b2 : SB.Idx → EReal)
    (p : Fin 100000) (q : Fin 128) : EReal :=
  leaky (pre (fun k => f (ix2 p k)) (fun k => h (ix2 p k)) w1 (b1 (ix2 (0 : Fin 1) q)) w2 (b2 (ix2 (0 : Fin 1) q)) q)

/-- The layer as one whole-array function. -/
def layer (f h : SN.Idx → EReal) (w1 : SW.Idx → EReal) (b1 : SB.Idx → EReal) (w2 : SW.Idx → EReal) (b2 : SB.Idx → EReal) :
    SN.Idx → EReal :=
  fun i => layerAt f h w1 b1 w2 b2 (i 0) (i 1)

/-- A bias vector [128] laid as the one row of a [1, 128] array. -/
def rowOf (b : (⟨1, ![128]⟩ : Shape).Idx → EReal) : SB.Idx → EReal := fun i => b (ix1 (i 1))

theorem rowOf_ix2 (b : (⟨1, ![128]⟩ : Shape).Idx → EReal) (u : Fin 1) (q : Fin 128) : rowOf b (ix2 u q) = b (ix1 q) := rfl

theorem layer_ix2 (f h : SN.Idx → EReal) (w1 : SW.Idx → EReal) (b1 : SB.Idx → EReal) (w2 : SW.Idx → EReal) (b2 : SB.Idx → EReal)
    (p : Fin 100000) (q : Fin 128) : layer f h w1 b1 w2 b2 (ix2 p q) = layerAt f h w1 b1 w2 b2 p q := rfl

end Cert.GnnSpec

end
-- ==== Proof.KernelTile.lean ====
/-
  One tile of the kernel, read at an index.

  At a grid point the kernel body loads a [4000, 128] block of the features and of the aggregated neighbours, the two
  [128, 128] weight matrices and the two [1, 128] bias rows, and stores one [4000, 128] value: the sum and the product
  of the two row blocks, each narrowed to bf16 (the identity on the extended reals) and multiplied on the matrix unit by
  its narrowed weight matrix into a zero accumulator, each plus its bias row broadcast over the rows, the two added,
  and the leaky rectifier applied. Read at row `p`, column `q` of the block this is `leaky (pre …)` of row `p` of the
  two blocks: a matrix product into zero is the plain sum over the contracted axis.
-/
import proofs.«129135_j89146341196447_2_alg».proof.Proof.Gen.KernelIdeal.Skeleton
import proofs.«129135_j89146341196447_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.GnnSpec

/-- The left operand of the tile's matrix product is read at the output's row. -/
theorem dot_lhs_row (i : S4000x128.Idx) (r : dot_S4000x128_S128x128_S4000x128_1_0_0_1_n_n.contr.Idx) :
    (dot_S4000x128_S128x128_S4000x128_1_0_0_1_n_n.lhsIdx i r 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- The right operand of the tile's matrix product is read at the output's column. -/
theorem dot_rhs_col (i : S4000x128.Idx) (r : dot_S4000x128_S128x128_S4000x128_1_0_0_1_n_n.contr.Idx) :
    (dot_S4000x128_S128x128_S4000x128_1_0_0_1_n_n.rhsIdx i r 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A [4000, 128] × [128, 128] matrix product into the zero accumulator, at row `p`, column `q`: the sum over the
    contracted axis of the products of row `p` of the left operand and column `q` of the right one. -/
theorem mm_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q)
      ((contrEquiv1 dot_S4000x128_S128x128_S4000x128_1_0_0_1_n_n 128 rfl rfl).symm k) = ix2 p k := funext fun ax => Fin.ext (by
    match ax with
    | ⟨0, _⟩ => exact dot_lhs_row _ _
    | ⟨1, _⟩ => exact (dot_S4000x128_S128x128_S4000x128_1_0_0_1_n_n.lhsIdx_val_of_single rfl _ _).trans hk)
  have er : dot_S4000x128_S128x128_S4000x128_1_0_0_1_n_n.rhsIdx (ix2 p q)
      ((contrEquiv1 dot_S4000x128_S128x128_S4000x128_1_0_0_1_n_n 128 rfl rfl).symm k) = ix2 k q := funext fun ax => Fin.ext (by
    match ax with
    | ⟨0, _⟩ => exact (dot_S4000x128_S128x128_S4000x128_1_0_0_1_n_n.rhsIdx_val_of_single rfl _ _).trans hk
    | ⟨1, _⟩ => exact dot_rhs_col _ _)
  rw [el, er]

/-- THE TILE'S STORED VALUE at row `p`, column `q` of the block, from the six loaded blocks: the layer's entry computed
    from row `p` of the feature block `x0` and of the neighbour block `x1`, the weights `x2`, `x4` and the bias rows `x3`, `x5`. -/
theorem pay_apply (x0 x1 : Vec Ideal S4000x128 .f32) (x2 x4 : Vec Ideal S128x128 .f32) (x3 x5 : Vec Ideal S1x128 .f32)
    (p : Fin 4000) (q : Fin 128) :
    k0_pay1 x0 x1 x2 x4 x3 x5 (ix2 p q)
      = leaky (pre (fun k => x0 (ix2 p k)) (fun k => x1 (ix2 p k)) x2 (x3 (ix2 (0 : Fin 1) q)) x4 (x5 (ix2 (0 : Fin 1) q)) q) := by
  unfold k0_pay1 leaky pre
  simp only [select_apply, cmpf_apply, mulf_apply, addf_apply, broadcast_apply, shapeCast_self, mm_apply, truncf_apply,
    broadcastTo_1b_ab_apply]

/-- THE TILE IS A BLOCK OF THE LAYER: when the two loaded row blocks hold, at block row `p`, row `P` of whole arrays `A0`, `A1`,
    and the other four loaded blocks are the whole weight matrices and bias rows, the value stored at `(p, q)` is the layer's
    entry `(P, q)` of those whole arrays. -/
theorem pay_layer (A0 A1 : SN.Idx → EReal) (A2 A4 : SW.Idx → EReal) (A3 A5 : SB.Idx → EReal)
    (X0 X1 : Vec Ideal S4000x128 .f32) (X2 X4 : Vec Ideal S128x128 .f32) (X3 X5 : Vec Ideal S1x128 .f32)
    (p : Fin 4000) (q : Fin 128) (P : Fin 100000)
    (h0 : ∀ k : Fin 128, X0 (ix2 p k) = A0 (ix2 P k)) (h1 : ∀ k : Fin 128, X1 (ix2 p k) = A1 (ix2 P k))
    (h2 : X2 = A2) (h4 : X4 = A4) (h3 : X3 = A3) (h5 : X5 = A5) :
    k0_pay1 X0 X1 X2 X4 X3 X5 (ix2 p q) = layer A0 A1 A2 A3 A4 A5 (ix2 P q) := by
  subst h2 h4 h3 h5
  rw [pay_apply, layer_ix2]
  unfold layerAt
  simp only [h0, h1]

end Cert.KernelIdeal.Tile

end
-- ==== Proof.KernelArray.lean ====
/-
  From tiles to the whole result array of the kernel.

  The grid has 25 points; point `t` stages rows `4000·t … 4000·t + 3999` of the features and of the aggregated neighbours,
  the whole weight matrices and bias rows (their block index is 0 at every point), and writes back rows
  `4000·t … 4000·t + 3999` of the result. So what point `t` writes back is block `t` of the layer of the whole arrays as the
  region finds them, the 25 blocks cover all 100000 rows (row `r` lies in block `r / 4000`), and the result array ends as
  the layer of those arrays. The arrays are kept as variables while a tile is read, and only then set to the contents
  the region finds.
-/
import proofs.«129135_j89146341196447_2_alg».proof.Proof.Gen.KernelIdeal.Value
import proofs.«129135_j89146341196447_2_alg».proof.Proof.KernelTile
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.GnnSpec
open Idealize.ShloMosaic.Pipeline (Dat)

variable (m : (ℓ : Loc nD τ sig) → Buf (Elt Ideal) ℓ) (ρ : Dev nD → PrngReg)

theorem off_zero : (![0, 0] : Fin 2 → Nat) = fun _ => 0 := funext fun a => by fin_cases a <;> rfl

/-- The printed index maps, decided over the 25 grid points: the two row-blocked inputs move with the output along the
    rows, every other block index is 0, and the output's row-block index is the point's number. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 25 := lt_of_lt_of_eq t.isLt N_0

/-- ONE TILE, over arbitrary whole arrays: the body's stored value computed from the six blocks of the arrays at point `t`,
    is block `t` of the layer of those arrays. -/
theorem tile (A0 A1 : SN.Idx → EReal) (A2 A4 : SW.Idx → EReal) (A3 A5 : SB.Idx → EReal) (t : Fin cfg0.N) :
    (cfg0.win 6).cut (grid0.coords t)
        (out0_6 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (layer A0 A1 A2 A3 A4 A5) := by
  unfold out0_6
  rw [View.canon_unit_zero off_zero]
  simp only [View.ld_unit_zero (S := S4000x128) off_zero, View.ld_unit_zero (S := S128x128) off_zero,
    View.ld_unit_zero (S := S1x128) off_zero]
  obtain ⟨e00, e01, e10, e11, e20, e21, e30, e31, e40, e41, e50, e51, e60, e61⟩ := idx_facts t
  have ht := point_lt t
  funext j
  obtain ⟨p, q, rfl⟩ : ∃ (p : Fin 4000) (q : Fin 128), j = ix2 p q := ⟨j 0, j 1, eq_ix2 j⟩
  have hp := p.isLt
  have hq := q.isLt
  have he : ((cfg0.win 6).blk t).view.emb (ix2 p q)
      = ix2 (⟨t.val * 4000 + p.val, by omega⟩ : Fin 100000) q := by
    funext a; apply Fin.ext
    match a with
    | ⟨0, _⟩ => show win0_6.index t (0 : Fin 2) * 4000 + 1 * p.val = t.val * 4000 + p.val; omega
    | ⟨1, _⟩ => show win0_6.index t (1 : Fin 2) * 128 + 1 * q.val = q.val; omega
  show k0_pay1 (F := Ideal) _ _ _ _ _ _ (ix2 p q) = layer A0 A1 A2 A3 A4 A5 (((cfg0.win 6).blk t).view.emb (ix2 p q))
  rw [he]
  refine Tile.pay_layer A0 A1 A2 A4 A3 A5 _ _ _ _ _ _ p q _ ?_ ?_ ?_ ?_ ?_ ?_
  · intro k
    have hk := k.isLt
    show A0 (((cfg0.win 0).blk t).view.emb (ix2 p k)) = _
    refine congrArg A0 ?_
    funext a; apply Fin.ext
    match a with
    | ⟨0, _⟩ => show win0_0.index t (0 : Fin 2) * 4000 + 1 * p.val = t.val * 4000 + p.val; omega
    | ⟨1, _⟩ => show win0_0.index t (1 : Fin 2) * 128 + 1 * k.val = k.val; omega
  · intro k
    have hk := k.isLt
    show A1 (((cfg0.win 1).blk t).view.emb (ix2 p k)) = _
    refine congrArg A1 ?_
    funext a; apply Fin.ext
    match a with
    | ⟨0, _⟩ => show win0_1.index t (0 : Fin 2) * 4000 + 1 * p.val = t.val * 4000 + p.val; omega
    | ⟨1, _⟩ => show win0_1.index t (1 : Fin 2) * 128 + 1 * k.val = k.val; omega
  · funext y
    show A2 (((cfg0.win 2).blk t).view.emb y) = A2 y
    refine congrArg A2 ?_
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show A4 (((cfg0.win 4).blk t).view.emb y) = A4 y
    refine congrArg A4 ?_
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show A3 (((cfg0.win 3).blk t).view.emb y) = A3 y
    refine congrArg A3 ?_
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  · funext y
    show A5 (((cfg0.win 5).blk t).view.emb y) = A5 y
    refine congrArg A5 ?_
    funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega

/-- WHAT POINT `t` WRITES BACK is block `t` of the layer of the arrays as the region finds them. -/
theorem flushed_eq (c : Dev nD) (t : Fin cfg0.N) :
    (dats m 0 c).flushed 6 t = ((cfg0.win 6).blk t).view.read (Elt Ideal)
      (layer (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5))) := by
  rw [Value.flushed6]
  unfold iblk
  exact tile (V m c (Pipeline.arrRef spec0 0)) (V m c (Pipeline.arrRef spec0 1)) (V m c (Pipeline.arrRef spec0 2))
    (V m c (Pipeline.arrRef spec0 4)) (V m c (Pipeline.arrRef spec0 3)) (V m c (Pipeline.arrRef spec0 5)) t

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v17).slice (win0_6.rect t)).set ↔ _
  rw [View.set_slice_whole, Rect.mem_set_unit]
  exact Iff.rfl

/-- Every index of the result array lies in some point's block: row `r` in block `r / 4000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 4000 :=
    ⟨⟨(i 0).val / 4000, by show _ < grid0.N; rw [N_0]; omega⟩, rfl⟩
  obtain ⟨e00, e01, e10, e11, e20, e21, e30, e31, e40, e41, e50, e51, e60, e61⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- THE RESULT ARRAY after the run is the layer of the arrays as the region finds them. -/
theorem final (c : Dev nD) :
    (dats m 0 c).arrAt 6 cfg0.N
      = layer (V m c (Pipeline.arrRef spec0 0)) (V m c (Pipeline.arrRef spec0 1)) (V m c (Pipeline.arrRef spec0 2))
        (V m c (Pipeline.arrRef spec0 3)) (V m c (Pipeline.arrRef spec0 4)) (V m c (Pipeline.arrRef spec0 5)) :=
  (dats m 0 c).arrAt_eq_of_cover 6 _ (fun t _ => flushed_eq m c t) cover

end Cert.KernelIdeal.Whole

end
-- ==== Proof.KernelHost.lean ====
/-
  What the kernel's region finds in the three arrays the host computes before it.

  The aggregated neighbours: the features are narrowed to bf16, the source rows gathered (a negative index wrapped by
  100000 first), widened back to f32, scaled by the edge weights and scatter-added by destination row into zeros. On
  the extended reals the narrowing and the widening are the identity, so this is, operation for operation, the array
  the reference builds from the same arguments. The two bias vectors are reshaped [128] → [1, 128]: each laid as a row.
-/
import proofs.«129135_j89146341196447_2_alg».proof.Proof.Gen.KernelIdeal.Frame
import proofs.«129135_j89146341196447_2_alg».proof.Proof.Gen.ReferenceIdeal.Read
import proofs.«129135_j89146341196447_2_alg».proof.Proof.Spec
import Idealize.ShloMosaic.Lib.StableHlo.Run
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.GnnSpec

variable (m : (ℓ : Loc nD τ sig) → Buf (Elt Ideal) ℓ)

set_option maxHeartbeats 2000000 in
/-- THE AGGREGATED NEIGHBOURS the region finds are the reference's, computed from the same four arguments. -/
theorem neigh (c : Dev nD) :
    (V m c main_v14 : S100000x128.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [V, hostOps0]
  after_results_simp
  rfl

set_option maxHeartbeats 2000000 in
/-- The first bias row the region finds is the first bias vector laid as a row. -/
theorem bias1 (c : Dev nD) : (V m c main_v15 : S1x128.Idx → EReal) = rowOf (m ((c : Thread nD τ).loc main_arg5)) := by
  have e : (V m c main_v15 : S1x128.Idx → EReal)
      = shapeCast S1x128 (m ((c : Thread nD τ).loc main_arg5)) shapeCasts_S128_S1x128 := by
    dsimp only [V, hostOps0]
    after_results_simp
    rfl
  rw [e]
  funext i
  obtain ⟨u, q, rfl⟩ : ∃ (u : Fin 1) (q : Fin 128), i = ix2 u q := ⟨i 0, i 1, eq_ix2 i⟩
  rw [rowOf_ix2]
  exact shapeCast_a_1a_apply _ _ u q

set_option maxHeartbeats 2000000 in
/-- The second bias row likewise. -/
theorem bias2 (c : Dev nD) : (V m c main_v16 : S1x128.Idx → EReal) = rowOf (m ((c : Thread nD τ).loc main_arg7)) := by
  have e : (V m c main_v16 : S1x128.Idx → EReal)
      = shapeCast S1x128 (m ((c : Thread nD τ).loc main_arg7)) shapeCasts_S128_S1x128 := by
    dsimp only [V, hostOps0]
    after_results_simp
    rfl
  rw [e]
  funext i
  obtain ⟨u, q, rfl⟩ : ∃ (u : Fin 1) (q : Fin 128), i = ix2 u q := ⟨i 0, i 1, eq_ix2 i⟩
  rw [rowOf_ix2]
  exact shapeCast_a_1a_apply _ _ u q

end Cert.KernelIdeal.HostSide

end
-- ==== Proof.RefLayer.lean ====
/-
  The reference, read at an index.

  The reference's last value is, operation by operation, the layer of `Spec`: the two host matrix products are sums over
  the contracted axis, the bias vectors laid as rows and broadcast over the rows read the bias at the column, and
  `jnp.where` is the selection. The aggregated neighbours (a gather of feature rows scaled by the edge weights and
  scatter-added by destination row) stay one opaque array: both branches read it at the same entries.
-/
import proofs.«129135_j89146341196447_2_alg».proof.Proof.Gen.ReferenceIdeal.Read
import proofs.«129135_j89146341196447_2_alg».proof.Proof.Spec
import Idealize.ShloMosaic.Lib.ValueIdx
import Idealize.ShloMosaic.PureOps.Ideal.Laws

noncomputable section

namespace Cert.ReferenceIdeal.RefLayer

open Cert.ReferenceIdeal Cert.ReferenceIdeal.Read Idealize.ShloMosaic Idealize.ShloMosaic.ValueIdx Cert.GnnSpec

/-- The left factor of either product is read at the output's row and the summation index. -/
theorem lrow (p : Fin 100000) (q k : Fin 128) : lidx_main_v14 (ix2 p q) k = ix2 p k :=
  funext fun a => Fin.ext (by match a with | ⟨0, _⟩ => rfl | ⟨1, _⟩ => rfl)
theorem lrow' (p : Fin 100000) (q k : Fin 128) : lidx_main_v19 (ix2 p q) k = ix2 p k :=
  funext fun a => Fin.ext (by match a with | ⟨0, _⟩ => rfl | ⟨1, _⟩ => rfl)
/-- The right factor at the summation index and the output's column. -/
theorem rcol (p : Fin 100000) (q k : Fin 128) : ridx_main_v14 (ix2 p q) k = ix2 k q :=
  funext fun a => Fin.ext (by match a with | ⟨0, _⟩ => rfl | ⟨1, _⟩ => rfl)
theorem rcol' (p : Fin 100000) (q k : Fin 128) : ridx_main_v19 (ix2 p q) k = ix2 k q :=
  funext fun a => Fin.ext (by match a with | ⟨0, _⟩ => rfl | ⟨1, _⟩ => rfl)
/-- A bias row broadcast over the rows is read at row 0 and the output's column. -/
theorem brow (p : Fin 100000) (q : Fin 128) : idx_main_v16 (ix2 p q) = ix2 (0 : Fin 1) q :=
  funext fun a => Fin.ext (by match a with | ⟨0, _⟩ => rfl | ⟨1, _⟩ => rfl)
theorem brow' (p : Fin 100000) (q : Fin 128) : idx_main_v21 (ix2 p q) = ix2 (0 : Fin 1) q :=
  funext fun a => Fin.ext (by match a with | ⟨0, _⟩ => rfl | ⟨1, _⟩ => rfl)

/-- A bias vector broadcast into one row is that vector laid as a row. -/
theorem bias_row (x : (⟨S128, .f32⟩ : BufTy).Contents (Elt Ideal)) : val_main_v15 (F := Ideal) x = rowOf x := by
  funext i
  obtain ⟨u, q, rfl⟩ : ∃ (u : Fin 1) (q : Fin 128), i = ix2 u q := ⟨i 0, i 1, eq_ix2 i⟩
  rw [val_main_v15_apply, rowOf_ix2]
  exact congrArg x (funext fun a => Fin.ext (by match a with | ⟨0, _⟩ => rfl))
theorem bias_row' (x : (⟨S128, .f32⟩ : BufTy).Contents (Elt Ideal)) : val_main_v20 (F := Ideal) x = rowOf x := by
  funext i
  obtain ⟨u, q, rfl⟩ : ∃ (u : Fin 1) (q : Fin 128), i = ix2 u q := ⟨i 0, i 1, eq_ix2 i⟩
  rw [val_main_v20_apply, rowOf_ix2]
  exact congrArg x (funext fun a => Fin.ext (by match a with | ⟨0, _⟩ => rfl))

/-- THE REFERENCE'S RESULT is the layer of the features, the aggregated neighbours (`val_main_v12`), the two weight
    matrices and the two bias vectors laid as rows. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v28 (F := Ideal) x0 x1 x2 x3 x4 x5 x6 x7
      = layer x0 (val_main_v12 (F := Ideal) x0 x1 x2 x3) x4 (rowOf x5) x6 (rowOf x7) := by
  rw [← bias_row, ← bias_row']
  funext i
  obtain ⟨p, q, rfl⟩ : ∃ (p : Fin 100000) (q : Fin 128), i = ix2 p q := ⟨i 0, i 1, eq_ix2 i⟩
  rw [layer_ix2]
  unfold layerAt leaky pre
  simp only [val_main_v28_apply, val_main_v25_apply, val_main_v27_apply, val_main_v23_apply, val_main_v17_apply,
    val_main_v22_apply, val_main_v14_apply, val_main_v19_apply, val_main_v13_apply, val_main_v18_apply, val_main_v16_apply,
    val_main_v21_apply, val_main_v24_apply, val_main_v26_apply, val_main_cst_1_apply, val_main_cst_2_apply,
    lrow, lrow', rcol, rcol', brow, brow', Ideal.addf_def, Ideal.mulf_def]

end Cert.ReferenceIdeal.RefLayer

end
-- ==== Proof.lean ====
/-
  One message-passing layer of a graph network on 100000 nodes with 128 features and 1600000 weighted edges:
  a Pallas kernel tiled over blocks of 4000 rows, against its jax.numpy reference, on the extended reals.

  Both programs first aggregate the neighbours on the host — gather the source rows of the features, scale them by the
  edge weights, scatter-add them by destination row — the kernel's program through a bf16 copy of the features, which
  on the extended reals is the features themselves (`KernelHost`). With `f` the features and `h` that aggregate, both then
  compute, at row `p` and column `q`,

      leaky ( (Σ_k (f p k + h p k) · W1 k q + b1 q) + (Σ_k (f p k · h p k) · W2 k q + b2 q) )

  (`Spec`): the reference by two host matrix products over all rows (`RefLayer`); the kernel one block of 4000 rows per grid
  point, by two matrix-unit products into zero accumulators (`KernelTile`), the 25 blocks tiling the rows (`KernelArray`).
  The two sides are the same sums in the same order, so no law of the extended reals beyond reading each operation at
  an index is used, and the finiteness of the inputs is never opened. The idealization rewrote nothing, so that claim
  is trivial; the two kernel frames are the generated ones and the reference's frame is its generated run.
-/
import proofs.«129135_j89146341196447_2_alg».proof.Defs
import proofs.«129135_j89146341196447_2_alg».proof.Proof.Gen.Kernel
import proofs.«129135_j89146341196447_2_alg».proof.Proof.Gen.Kernel.Skeleton
import proofs.«129135_j89146341196447_2_alg».proof.Proof.Gen.Kernel.Launch
import proofs.«129135_j89146341196447_2_alg».proof.Proof.Gen.Kernel.Points
import proofs.«129135_j89146341196447_2_alg».proof.Proof.Gen.Kernel.Frame
import proofs.«129135_j89146341196447_2_alg».proof.Proof.Gen.KernelIdeal
import proofs.«129135_j89146341196447_2_alg».proof.Proof.Gen.KernelIdeal.Skeleton
import proofs.«129135_j89146341196447_2_alg».proof.Proof.Gen.KernelIdeal.Launch
import proofs.«129135_j89146341196447_2_alg».proof.Proof.Gen.KernelIdeal.Points
import proofs.«129135_j89146341196447_2_alg».proof.Proof.Gen.KernelIdeal.Frame
import proofs.«129135_j89146341196447_2_alg».proof.Proof.Gen.ReferenceIdeal
import proofs.«129135_j89146341196447_2_alg».proof.Proof.Gen.Pre_finite_inputs
import proofs.«129135_j89146341196447_2_alg».proof.Proof.Gen.KernelIdeal.Value
import proofs.«129135_j89146341196447_2_alg».proof.Proof.Gen.ReferenceIdeal.Run
import proofs.«129135_j89146341196447_2_alg».proof.Proof.Gen.ReferenceIdeal.Read
import proofs.«129135_j89146341196447_2_alg».proof.Proof.KernelArray
import proofs.«129135_j89146341196447_2_alg».proof.Proof.KernelHost
import proofs.«129135_j89146341196447_2_alg».proof.Proof.RefLayer
import Idealize.ShloMosaic.Adequacy
import Idealize.ShloMosaic.Init

noncomputable section

namespace Cert.Proof

open Idealize.ShloMosaic Idealize.ShloMosaic.TcCoe Idealize.SL.Sem Cert.GnnSpec

/-- THE KERNEL'S RESULT ARRAY after its run: the layer of the features, the aggregated neighbours computed from the
    features, the edge list and the edge weights, the two weight matrices and the two bias vectors laid as rows —
    the tiles' cover (`Whole.final`) with each array the region finds read back to the arguments. -/
theorem kernel_value (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 6 Cert.KernelIdeal.cfg0.N
      = layer (m ((c : Thread Cert.KernelIdeal.nD Cert.KernelIdeal.τ).loc Cert.KernelIdeal.main_arg0))
          (Cert.ReferenceIdeal.Read.val_main_v12 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2))
            (m ((c : Thread Cert.KernelIdeal.nD Cert.KernelIdeal.τ).loc Cert.KernelIdeal.main_arg3)))
          (m ((c : Thread Cert.KernelIdeal.nD Cert.KernelIdeal.τ).loc Cert.KernelIdeal.main_arg4))
          (rowOf (m ((c : Thread Cert.KernelIdeal.nD Cert.KernelIdeal.τ).loc Cert.KernelIdeal.main_arg5)))
          (m ((c : Thread Cert.KernelIdeal.nD Cert.KernelIdeal.τ).loc Cert.KernelIdeal.main_arg6))
          (rowOf (m ((c : Thread Cert.KernelIdeal.nD Cert.KernelIdeal.τ).loc Cert.KernelIdeal.main_arg7))) := by
  have h : (Cert.KernelIdeal.Gen.dats m 0 c).arrAt 6 Cert.KernelIdeal.cfg0.N
      = layer (Cert.KernelIdeal.Gen.V m c Cert.KernelIdeal.main_arg0) (Cert.KernelIdeal.Gen.V m c Cert.KernelIdeal.main_v14)
          (Cert.KernelIdeal.Gen.V m c Cert.KernelIdeal.main_arg4) (Cert.KernelIdeal.Gen.V m c Cert.KernelIdeal.main_v15)
          (Cert.KernelIdeal.Gen.V m c Cert.KernelIdeal.main_arg6) (Cert.KernelIdeal.Gen.V m c Cert.KernelIdeal.main_v16) :=
    Cert.KernelIdeal.Whole.final m c
  rw [h, Cert.KernelIdeal.Gen.V_main_arg0 m c, Cert.KernelIdeal.Gen.V_main_arg4 m c, Cert.KernelIdeal.Gen.V_main_arg6 m c,
    Cert.KernelIdeal.HostSide.neigh m c, Cert.KernelIdeal.HostSide.bias1 m c, Cert.KernelIdeal.HostSide.bias2 m c]

theorem frame_p : Cert.frame_Kernel := fun m ρ _ => Cert.Kernel.Gen.frame m ρ
theorem frame_pi : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the eight arguments both runs end with the same result array: the layer of the arguments. -/
theorem algebraic : Cert.algebraic_KernelIdeal_ReferenceIdeal := by
  intro m ρ m' ρ' _ hagree
  refine ⟨fun c => layer (m ((c : Thread Cert.KernelIdeal.nD Cert.KernelIdeal.τ).loc Cert.KernelIdeal.main_arg0))
      (Cert.ReferenceIdeal.Read.val_main_v12 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3)))
      (m ((c : Thread Cert.KernelIdeal.nD Cert.KernelIdeal.τ).loc Cert.KernelIdeal.main_arg4))
      (rowOf (m ((c : Thread Cert.KernelIdeal.nD Cert.KernelIdeal.τ).loc Cert.KernelIdeal.main_arg5)))
      (m ((c : Thread Cert.KernelIdeal.nD Cert.KernelIdeal.τ).loc Cert.KernelIdeal.main_arg6))
      (rowOf (m ((c : Thread Cert.KernelIdeal.nD Cert.KernelIdeal.τ).loc Cert.KernelIdeal.main_arg7))), ?_, ?_⟩
  · exact (θ_run Cert.KernelIdeal.defs _ _).mono (fun r h c => ⟨(h c).1.trans (kernel_value m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v28_eq, Cert.ReferenceIdeal.RefLayer.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
